-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24576x2048 : Shape := ⟨2, ![24576, 2048]⟩
abbrev S1x3x2048 : Shape := ⟨3, ![1, 3, 2048]⟩
abbrev S_ : Shape := ⟨0, ![]⟩

class Facts : Prop where
  bcast_S_S24576x2048 : S_.BroadcastsInDim S24576x2048 (![] : Fin 0 → Fin S24576x2048.rank)
  reducesTo_S24576x2048_S_d0_1 : S24576x2048.ReducesTo [0, 1] S_
  h_S_ : 0 < S_.numel
  bcast_S_S1x3x2048 : S_.BroadcastsInDim S1x3x2048 (![] : Fin 0 → Fin S1x3x2048.rank)
  reducesTo_S1x3x2048_S_d0_1_2 : S1x3x2048.ReducesTo [0, 1, 2] S_

variable [Facts]

def fn {F : FTy → Type} [FloatOps F] (main_arg0 : FVec F S24576x2048 .f32) (main_arg1 : FVec F S1x3x2048 .f32) : IVec S_ 1 :=
  let main_v0 : FVec F S24576x2048 .f32 := Host.absf main_arg0
  let main_cst : FVec F S_ .f32 := constant S_ .f32 0x7F800000#32
  let main_v1 : FVec F S24576x2048 .f32 := broadcastInDim S24576x2048 ![] bcast_S_S24576x2048 main_cst
  let main_v2 : IVec S24576x2048 1 := cmpf .olt main_v0 main_v1
  let main_c : IVec S_ 1 := constantI S_ 1 1#1
  let main_v3 : IVec S_ 1 := (fun x v => Host.reduce IntOp.andi x v reducesTo_S24576x2048_S_d0_1 h_S_) main_v2 main_c
  let main_v4 : FVec F S1x3x2048 .f32 := Host.absf main_arg1
  let main_cst_0 : FVec F S_ .f32 := constant S_ .f32 0x7F800000#32
  let main_v5 : FVec F S1x3x2048 .f32 := broadcastInDim S1x3x2048 ![] bcast_S_S1x3x2048 main_cst_0
  let main_v6 : IVec S1x3x2048 1 := cmpf .olt main_v4 main_v5
  let main_c_1 : IVec S_ 1 := constantI S_ 1 1#1
  let main_v7 : IVec S_ 1 := (fun x v => Host.reduce IntOp.andi x v reducesTo_S1x3x2048_S_d0_1_2 h_S_) main_v6 main_c_1
  let main_v8 : IVec S_ 1 := andi main_v3 main_v7
  main_v8
-- ==== Kernel.lean ====
abbrev S24576x2048 : Shape := ⟨2, ![24576, 2048]⟩
abbrev S1x3x2048 : Shape := ⟨3, ![1, 3, 2048]⟩
abbrev S8192x3x2048 : Shape := ⟨3, ![8192, 3, 2048]⟩
abbrev S64x3x2048 : Shape := ⟨3, ![64, 3, 2048]⟩
abbrev S64x1x2048 : Shape := ⟨3, ![64, 1, 2048]⟩
abbrev S64x2048 : Shape := ⟨2, ![64, 2048]⟩
abbrev S1x1x2048 : Shape := ⟨3, ![1, 1, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩

abbrev nBuf : Space → Nat
  | .hbm => 5
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S1x3x2048, .f32⟩
  | .hbm, ⟨2, _⟩ => ⟨S8192x3x2048, .f32⟩
  | .hbm, ⟨3, _⟩ => ⟨S8192x3x2048, .f32⟩
  | .hbm, ⟨4, _⟩ => ⟨S24576x2048, .f32⟩
  | .local _ .vmem, ⟨0, _⟩ => ⟨S64x3x2048, .f32⟩
  | .local _ .vmem, ⟨1, _⟩ => ⟨S64x3x2048, .f32⟩
  | .local _ .vmem, ⟨2, _⟩ => ⟨S1x3x2048, .f32⟩
  | .local _ .vmem, ⟨3, _⟩ => ⟨S64x3x2048, .f32⟩
  | .local _ .vmem, ⟨4, _⟩ => ⟨S64x3x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S24576x2048_S8192x3x2048 : S24576x2048.ShapeCasts S8192x3x2048
  inb_S64x3x2048_S64x3x2048_0_0_0 : ∀ a, (![0, 0, 0] : Fin 3 → Nat) a + S64x3x2048.size a ≤ S64x3x2048.size a
  h_S64x3x2048 : 0 < S64x3x2048.numel
  shapeCasts_S64x3x2048_S64x3x2048 : S64x3x2048.ShapeCasts S64x3x2048
  inb_S1x3x2048_S1x3x2048_0_0_0 : ∀ a, (![0, 0, 0] : Fin 3 → Nat) a + S1x3x2048.size a ≤ S1x3x2048.size a
  h_S1x3x2048 : 0 < S1x3x2048.numel
  slices_S64x3x2048_o0_0_0_S64x1x2048 : S64x3x2048.Slices ![0, 0, 0] S64x1x2048
  shapeCasts_S64x1x2048_S64x2048 : S64x1x2048.ShapeCasts S64x2048
  slices_S1x3x2048_o0_0_0_S1x1x2048 : S1x3x2048.Slices ![0, 0, 0] S1x1x2048
  shapeCasts_S1x1x2048_S2048 : S1x1x2048.ShapeCasts S2048
  shapeCasts_S2048_S1x2048 : S2048.ShapeCasts S1x2048
  broadcasts_S1x2048_S64x2048 : S1x2048.Broadcasts S64x2048
  slices_S64x3x2048_o0_1_0_S64x1x2048 : S64x3x2048.Slices ![0, 1, 0] S64x1x2048
  slices_S1x3x2048_o0_1_0_S1x1x2048 : S1x3x2048.Slices ![0, 1, 0] S1x1x2048
  slices_S64x3x2048_o0_2_0_S64x1x2048 : S64x3x2048.Slices ![0, 2, 0] S64x1x2048
  slices_S1x3x2048_o0_2_0_S1x1x2048 : S1x3x2048.Slices ![0, 2, 0] S1x1x2048
  reduces_S64x2048_S64 : S64x2048.Reduces [1] S64
  shapeCasts_S64_S64x1 : S64.ShapeCasts S64x1
  broadcasts_S64x1_S64x2048 : S64x1.Broadcasts S64x2048
  shapeCasts_S64x2048_S64x1x2048 : S64x2048.ShapeCasts S64x1x2048
  concatenates_S64x1x2048_S64x1x2048_S64x1x2048_S64x3x2048_d1 : Shape.Concatenates [S64x1x2048, S64x1x2048, S64x1x2048] S64x3x2048 1
  shapeCasts_S8192x3x2048_S24576x2048 : S8192x3x2048.ShapeCasts S24576x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3x2048.size a ≤ S8192x3x2048.size a
  hwx0_0 : ∀ i : grid0.Coords, EltTy.bits .f32 = 32 ∨ (Rect.block (s := S8192x3x2048) S64x3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S1x3x2048.size a
  hwx0_1 : ∀ i : grid0.Coords, EltTy.bits .f32 = 32 ∨ (Rect.block (s := S1x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x3x2048.size a ≤ S8192x3x2048.size a
  hwx0_2 : ∀ i : grid0.Coords, EltTy.bits .f32 = 32 ∨ (Rect.block (s := S8192x3x2048) S64x3x2048.size (cc0_transform_2 i) (hinb0_2 i)).WholeWords (EltTy.packing .f32)

variable [Facts₀]

abbrev win0_0 : Pipeline.Window sig grid0 :=
  Pipeline.Window.ofSpec (Memref.whole main_v0) S64x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S24576x2048 : Shape := ⟨2, ![24576, 2048]⟩
abbrev S1x3x2048 : Shape := ⟨3, ![1, 3, 2048]⟩
abbrev S8192x3x2048 : Shape := ⟨3, ![8192, 3, 2048]⟩
abbrev S8192x1x2048 : Shape := ⟨3, ![8192, 1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 274
  | .vmem => 0
  | .smem => 0
  | _ => 0

abbrev hbmTy0_0 (i : Nat) : BufTy := match i % 128 with
  | 0 => ⟨S24576x2048, .f32⟩
  | 1 => ⟨S1x3x2048, .f32⟩
  | 2 => ⟨S8192x3x2048, .f32⟩
  | 3 => ⟨S8192x3x2048, .f32⟩
  | 4 => ⟨S8192x3x2048, .f32⟩
  | 5 => ⟨S8192x1x2048, .f32⟩
  | 6 => ⟨S8192x2048, .f32⟩
  | 7 => ⟨S8192x1x2048, .f32⟩
  | 8 => ⟨S8192x2048, .f32⟩
  | 9 => ⟨S8192x1x2048, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S8192x2048, .f32⟩
  | 16 => ⟨S_, .f32⟩
  | 17 => ⟨S8192, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S_, .f32⟩
  | 32 => ⟨S8192, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x2048, .f32⟩
  | 42 => ⟨S_, .f32⟩
  | 43 => ⟨S8192, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x2048, .f32⟩
  | 50 => ⟨S_, .f32⟩
  | 51 => ⟨S8192, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x2048, .f32⟩
  | 58 => ⟨S_, .f32⟩
  | 59 => ⟨S8192, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x2048, .f32⟩
  | 66 => ⟨S_, .f32⟩
  | 67 => ⟨S8192, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x2048, .f32⟩
  | 78 => ⟨S_, .f32⟩
  | 79 => ⟨S8192, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x2048, .f32⟩
  | 91 => ⟨S8192x2048, .f32⟩
  | 92 => ⟨S8192x2048, .f32⟩
  | 93 => ⟨S8192x1, .f32⟩
  | 94 => ⟨S8192x2048, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S_, .f32⟩
  | 103 => ⟨S8192, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x2048, .f32⟩
  | 113 => ⟨S_, .f32⟩
  | 114 => ⟨S8192x2048, .f32⟩
  | 115 => ⟨S8192x2048, .f32⟩
  | 116 => ⟨S8192x2048, .f32⟩
  | 117 => ⟨S_, .f32⟩
  | 118 => ⟨S8192, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x2048, .f32⟩
  | _ => ⟨S24576x2048, .f32⟩

abbrev hbmTy0_1 (i : Nat) : BufTy := match i % 128 with
  | 0 => ⟨S_, .f32⟩
  | 1 => ⟨S8192, .f32⟩
  | 2 => ⟨S8192x1, .f32⟩
  | 3 => ⟨S8192x1, .f32⟩
  | 4 => ⟨S_, .f32⟩
  | 5 => ⟨S8192x1, .f32⟩
  | 6 => ⟨S8192x1, .f32⟩
  | 7 => ⟨S8192x2048, .f32⟩
  | 8 => ⟨S_, .f32⟩
  | 9 => ⟨S8192, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x2048, .f32⟩
  | 16 => ⟨S_, .f32⟩
  | 17 => ⟨S8192, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x2048, .f32⟩
  | 24 => ⟨S_, .f32⟩
  | 25 => ⟨S8192, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x2048, .f32⟩
  | 36 => ⟨S_, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x2048, .f32⟩
  | 49 => ⟨S8192x2048, .f32⟩
  | 50 => ⟨S8192x2048, .f32⟩
  | 51 => ⟨S8192x1, .f32⟩
  | 52 => ⟨S8192x2048, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S_, .f32⟩
  | 61 => ⟨S8192, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x2048, .f32⟩
  | 71 => ⟨S_, .f32⟩
  | 72 => ⟨S8192x2048, .f32⟩
  | 73 => ⟨S8192x2048, .f32⟩
  | 74 => ⟨S8192x2048, .f32⟩
  | 75 => ⟨S_, .f32⟩
  | 76 => ⟨S8192, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x2048, .f32⟩
  | 86 => ⟨S_, .f32⟩
  | 87 => ⟨S8192, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x2048, .f32⟩
  | 94 => ⟨S_, .f32⟩
  | 95 => ⟨S8192, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x2048, .f32⟩
  | 102 => ⟨S_, .f32⟩
  | 103 => ⟨S8192, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x2048, .f32⟩
  | 110 => ⟨S_, .f32⟩
  | 111 => ⟨S8192, .f32⟩
  | 112 => ⟨S8192x1, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x2048, .f32⟩
  | 122 => ⟨S_, .f32⟩
  | 123 => ⟨S8192, .f32⟩
  | 124 => ⟨S8192x1, .f32⟩
  | 125 => ⟨S8192x1, .f32⟩
  | 126 => ⟨S8192x1, .f32⟩
  | 127 => ⟨S_, .f32⟩
  | _ => ⟨S24576x2048, .f32⟩

abbrev hbmTy0_2 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x2048, .f32⟩
  | 7 => ⟨S8192x2048, .f32⟩
  | 8 => ⟨S8192x2048, .f32⟩
  | 9 => ⟨S8192x1, .f32⟩
  | 10 => ⟨S8192x2048, .f32⟩
  | 11 => ⟨S8192x2048, .f32⟩
  | 12 => ⟨S8192x2048, .f32⟩
  | 13 => ⟨S8192x1x2048, .f32⟩
  | 14 => ⟨S8192x1x2048, .f32⟩
  | 15 => ⟨S8192x1x2048, .f32⟩
  | 16 => ⟨S8192x3x2048, .f32⟩
  | 17 => ⟨S24576x2048, .f32⟩
  | _ => ⟨S24576x2048, .f32⟩

abbrev hbmTy (i : Nat) : BufTy := match i / 128 with
  | 0 => hbmTy0_0 i
  | 1 => hbmTy0_1 i
  | 2 => hbmTy0_2 i
  | _ => ⟨S24576x2048, .f32⟩

abbrev bufTy : (tb : Table) → Fin (tcTables nBuf tb) → BufTy
  | .hbm, ⟨i, _⟩ => hbmTy i
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_14 : Ref sig .tc := ⟨.hbm, 71, rfl⟩
abbrev main_v54 : Ref sig .tc := ⟨.hbm, 72, rfl⟩
abbrev main_v55 : Ref sig .tc := ⟨.hbm, 73, rfl⟩
abbrev main_cst_15 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_cst_18 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_19 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_20 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_21 : Ref sig .tc := ⟨.hbm, 106, rfl⟩
abbrev main_v82 : Ref sig .tc := ⟨.hbm, 107, rfl⟩
abbrev main_v83 : Ref sig .tc := ⟨.hbm, 108, rfl⟩
abbrev main_cst_22 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_23 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_24 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_25 : Ref sig .tc := ⟨.hbm, 121, rfl⟩
abbrev main_v93 : Ref sig .tc := ⟨.hbm, 122, rfl⟩
abbrev main_v94 : Ref sig .tc := ⟨.hbm, 123, rfl⟩
abbrev main_cst_26 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_27 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_28 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_29 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_30 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_31 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_32 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_33 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_34 : Ref sig .tc := ⟨.hbm, 157, rfl⟩
abbrev main_v120 : Ref sig .tc := ⟨.hbm, 158, rfl⟩
abbrev main_v121 : Ref sig .tc := ⟨.hbm, 159, rfl⟩
abbrev main_cst_35 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_36 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_37 : Ref sig .tc := ⟨.hbm, 169, rfl⟩
abbrev main_v129 : Ref sig .tc := ⟨.hbm, 170, rfl⟩
abbrev main_v130 : Ref sig .tc := ⟨.hbm, 171, rfl⟩
abbrev main_cst_38 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_39 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_40 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_41 : Ref sig .tc := ⟨.hbm, 192, rfl⟩
abbrev main_v148 : Ref sig .tc := ⟨.hbm, 193, rfl⟩
abbrev main_v149 : Ref sig .tc := ⟨.hbm, 194, rfl⟩
abbrev main_cst_42 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_43 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_44 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_45 : Ref sig .tc := ⟨.hbm, 207, rfl⟩
abbrev main_v159 : Ref sig .tc := ⟨.hbm, 208, rfl⟩
abbrev main_v160 : Ref sig .tc := ⟨.hbm, 209, rfl⟩
abbrev main_cst_46 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_47 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_48 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_49 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_50 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_51 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_52 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_53 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_54 : Ref sig .tc := ⟨.hbm, 243, rfl⟩
abbrev main_v186 : Ref sig .tc := ⟨.hbm, 244, rfl⟩
abbrev main_v187 : Ref sig .tc := ⟨.hbm, 245, rfl⟩
abbrev main_cst_55 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_56 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_57 : Ref sig .tc := ⟨.hbm, 255, rfl⟩
abbrev main_v195 : Ref sig .tc := ⟨.hbm, 256, rfl⟩
abbrev main_v196 : Ref sig .tc := ⟨.hbm, 257, rfl⟩
abbrev main_cst_58 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩

abbrev nD : Nat := 1
abbrev τ : Topo := Topo.v7x

variable {F : FTy → Type} [FloatOps F]

class Facts₀ : Prop where
  shapeCasts_S24576x2048_S8192x3x2048 : S24576x2048.ShapeCasts S8192x3x2048
  bcast_S1x3x2048_S8192x3x2048_0_1_2 : S1x3x2048.BroadcastsInDim S8192x3x2048 (![0, 1, 2] : Fin 3 → Fin S8192x3x2048.rank)
  slices_S8192x3x2048_S8192x1x2048_0_0_0 : S8192x3x2048.Slices ![0, 0, 0] S8192x1x2048
  shapeCasts_S8192x1x2048_S8192x2048 : S8192x1x2048.ShapeCasts S8192x2048
  slices_S8192x3x2048_S8192x1x2048_0_1_0 : S8192x3x2048.Slices ![0, 1, 0] S8192x1x2048
  slices_S8192x3x2048_S8192x1x2048_0_2_0 : S8192x3x2048.Slices ![0, 2, 0] S8192x1x2048
  bcast_S_S8192x2048 : S_.BroadcastsInDim S8192x2048 (![] : Fin 0 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S8192x2048_S8192x1x2048_0_2 : S8192x2048.BroadcastsInDim S8192x1x2048 (![0, 2] : Fin 2 → Fin S8192x1x2048.rank)
  concatenates_S8192x1x2048_S8192x1x2048_S8192x1x2048_S8192x3x2048_d1 : Shape.Concatenates [S8192x1x2048, S8192x1x2048, S8192x1x2048] S8192x3x2048 1
  shapeCasts_S8192x3x2048_S24576x2048 : S8192x3x2048.ShapeCasts S24576x2048

variable [Facts₀]

class Facts : Prop extends Facts₀ where

variable [Facts]
-- ==== Proof.RowSim.lean ====
/-
  The similarity mixture of three rows, on the extended reals.

  A row is a vector of N extended reals. For rows a, b, c the mixture is, entry by entry,

      a + (w(a, b) + u(a, b)) · b + (w(a, c) + u(a, c)) · c,

  where w(a, b) = 1 / (1 + ‖a − b + ε‖) is a distance weight (‖·‖ the Euclidean norm, ε added to every entry of the
  difference) and u(a, b) = 1/2 + 1/2 · ⟨a, b⟩ / (n(a) · n(b)) a cosine weight, n(a) = max(‖a‖, δ). Square roots,
  quotients, maxima and sums are the extended reals' own; the four constants ε, δ, 1 and 1/2 are kept as the binary
  words the programs carry, so that the same word on both sides is never evaluated.

  An array of R triples of rows (one row per step s = 0, 1, 2), each first shifted by a position row P(s), is sent to
  the array whose step 0 is the mixture of rows (0, 1, 2), step 1 that of rows (1, 0, 2) and step 2 that of rows
  (2, 0, 1).
-/
import Idealize.ShloMosaic.PureOps.Ideal
import Idealize.ShloMosaic.Lib.ValueIdx

noncomputable section

open scoped BigOperators

namespace Cert.RowSim

open Idealize.ShloMosaic Idealize.ShloMosaic.ValueIdx

/-- A row of N extended reals. -/
abbrev Row (N : ℕ) := Fin N → EReal

variable {N R : ℕ}

/-- The distance weight 1 / (1 + ‖a − b + ε‖). -/
def distW (a b : Row N) : EReal :=
  Ideal.div (Ideal.ofBits .f32 0x3F800000#32)
    (Ideal.ofBits .f32 0x3F800000#32
      + Ideal.sqrt (∑ k, (a k - b k + Ideal.ofBits .f32 0x358637BD#32) * (a k - b k + Ideal.ofBits .f32 0x358637BD#32)))

/-- The clamped norm max(‖a‖, δ). -/
def norm (a : Row N) : EReal := max (Ideal.sqrt (∑ k, a k * a k)) (Ideal.ofBits .f32 0x322BCC77#32)

/-- The cosine weight 1/2 + 1/2 · ⟨a, b⟩ / (n(a) · n(b)). -/
def cosW (a b : Row N) : EReal :=
  Ideal.ofBits .f32 0x3F000000#32
    + Ideal.ofBits .f32 0x3F000000#32 * Ideal.div (∑ k, a k * b k) (norm a * norm b)

/-- The mixture a + (w(a,b) + u(a,b)) · b + (w(a,c) + u(a,c)) · c. -/
def sim (a b c : Row N) : Row N :=
  fun j => a j + (distW a b + cosW a b) * b j + (distW a c + cosW a c) * c j

/-- Step s of a triple of rows: the mixture led by row s, the other two in increasing order. -/
def pick (f : Fin 3 → Row N) (s : Fin 3) : Row N :=
  ![sim (f 0) (f 1) (f 2), sim (f 1) (f 0) (f 2), sim (f 2) (f 0) (f 1)] s

/-- Row s of triple r of the array X, shifted by row s of the position array P. -/
def rowOf (X : (⟨3, ![R, 3, N]⟩ : Shape).Idx → EReal) (P : (⟨3, ![1, 3, N]⟩ : Shape).Idx → EReal) (r : Fin R) (s : Fin 3) :
    Row N :=
  fun k => X (ix3 r s k) + P (ix3 (0 : Fin 1) s k)

/-- The whole result: entry (r, s, j) is entry j of step s of triple r. -/
def out3 (X : (⟨3, ![R, 3, N]⟩ : Shape).Idx → EReal) (P : (⟨3, ![1, 3, N]⟩ : Shape).Idx → EReal) :
    (⟨3, ![R, 3, N]⟩ : Shape).Idx → EReal :=
  fun i => pick (rowOf X P (i 0)) (i 1) (i 2)

theorem out3_apply (X : (⟨3, ![R, 3, N]⟩ : Shape).Idx → EReal) (P : (⟨3, ![1, 3, N]⟩ : Shape).Idx → EReal)
    (r : Fin R) (s : Fin 3) (j : Fin N) : out3 X P (ix3 r s j) = pick (rowOf X P r) s j := rfl

end Cert.RowSim

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.KernelSim.lean ====
/-
  One similarity mixture inside the kernel's body, as vectors, and read at an entry.

  The body works on [64, 2048] blocks of rows. The Euclidean norms, the inner products and the squared distances are
  lane sums kept as [64, 1] columns (a sum over the 2048 lanes, then a shape cast that stands the 64 sums up as a
  column); the two weights of a mixture live in such columns, and a column is spread back across the 2048 lanes before
  it multiplies a block. Read on the extended reals at row r, each column entry is the row-level quantity of
  RowSim.lean for rows r of the blocks, and the mixture's entry (r, j) is entry j of the mixture of those rows.
-/
import proofs.«162248_j58420145160370_2_alg».proof.KernelIdeal
import proofs.«162248_j58420145160370_2_alg».proof.Proof.RowSim
import proofs.«162248_j58420145160370_2_alg».proof.Proof.LibColumnForms
import Idealize.ShloMosaic.Lib.ValueIdx
import Idealize.ShloMosaic.PureOps.Ideal.Laws

noncomputable section

open scoped BigOperators

namespace Cert.KernelIdeal.Sim

open Idealize.ShloMosaic Idealize.ShloMosaic.ValueIdx Cert.KernelIdeal Cert.KernelIdeal.Facts₀

variable {F : FTy → Type} [FloatOps F] [Cert.KernelIdeal.Facts]

/-- The lane sum of a block, kept as a column. -/
def rowSum (x : FVec F S64x2048 .f32) : FVec F S64x1 .f32 :=
  shapeCast S64x1 (multiReduction .add [1] S64 x 0x00000000#32 reduces_S64x2048_S64 (.inl rfl) rfl) shapeCasts_S64_S64x1

/-- A column spread across the lanes. -/
def spread (w : FVec F S64x1 .f32) : FVec F S64x2048 .f32 := broadcastTo S64x2048 w broadcasts_S64x1_S64x2048

/-- 1 + ‖a − b + ε‖, row by row. -/
def den (a b : FVec F S64x2048 .f32) : FVec F S64x1 .f32 :=
  addf (broadcast S64x1 (Scalar.ofBits .f32 0x3F800000#32))
    (sqrt (rowSum (mulf (addf (subf a b) (broadcast S64x2048 (Scalar.ofBits .f32 0x358637BD#32)))
      (addf (subf a b) (broadcast S64x2048 (Scalar.ofBits .f32 0x358637BD#32))))))

/-- The distance weight, row by row. -/
def dist (a b : FVec F S64x2048 .f32) : FVec F S64x1 .f32 :=
  divf (broadcast S64x1 (Scalar.ofBits .f32 0x3F800000#32)) (den a b)

/-- The clamped norm, row by row. -/
def norm (a : FVec F S64x2048 .f32) : FVec F S64x1 .f32 :=
  maximumf (sqrt (rowSum (mulf a a))) (broadcast S64x1 (Scalar.ofBits .f32 0x322BCC77#32))

/-- The cosine weight, row by row. -/
def cos (a b : FVec F S64x2048 .f32) : FVec F S64x1 .f32 :=
  addf (broadcast S64x1 (Scalar.ofBits .f32 0x3F000000#32))
    (mulf (broadcast S64x1 (Scalar.ofBits .f32 0x3F000000#32)) (divf (rowSum (mulf a b)) (mulf (norm a) (norm b))))

/-- The mixture of three blocks. -/
def sim (a b c : FVec F S64x2048 .f32) : FVec F S64x2048 .f32 :=
  addf (addf a (mulf (spread (addf (dist a b) (cos a b))) b)) (mulf (spread (addf (dist a c) (cos a c))) c)

/-! ## Read at an entry, on the extended reals -/

/-- Row r of a block. -/
abbrev row (a : FVec Ideal S64x2048 .f32) (r : Fin 64) : RowSim.Row 2048 := fun k => a (ix2 r k)

theorem rowSum_apply (x : FVec Ideal S64x2048 .f32) (r : Fin 64) :
    rowSum x (ix2 r (0 : Fin 1)) = ∑ k : Fin 2048, x (ix2 r k) :=
  (ColumnForms.shapeCast_a_a1_apply _ shapeCasts_S64_S64x1 r).trans
    (ColumnForms.laneSum_zero_f32_apply x reduces_S64x2048_S64 (.inl rfl) rfl r)

theorem spread_apply (w : FVec Ideal S64x1 .f32) (r : Fin 64) (j : Fin 2048) :
    spread w (ix2 r j) = w (ix2 r (0 : Fin 1)) :=
  ColumnForms.broadcastTo_a1_ab_apply w broadcasts_S64x1_S64x2048 r j

theorem dist_apply (a b : FVec Ideal S64x2048 .f32) (r : Fin 64) :
    dist a b (ix2 r (0 : Fin 1)) = RowSim.distW (row a r) (row b r) := by
  show Ideal.div (Ideal.ofBits .f32 0x3F800000#32) (Ideal.ofBits .f32 0x3F800000#32 + Ideal.sqrt (rowSum (F := Ideal) _ (ix2 r (0 : Fin 1)))) = _
  rw [rowSum_apply]
  rfl

theorem norm_apply (a : FVec Ideal S64x2048 .f32) (r : Fin 64) :
    norm a (ix2 r (0 : Fin 1)) = RowSim.norm (row a r) := by
  show max (Ideal.sqrt (rowSum (F := Ideal) _ (ix2 r (0 : Fin 1)))) (Ideal.ofBits .f32 0x322BCC77#32) = _
  rw [rowSum_apply]
  rfl

theorem cos_apply (a b : FVec Ideal S64x2048 .f32) (r : Fin 64) :
    cos a b (ix2 r (0 : Fin 1)) = RowSim.cosW (row a r) (row b r) := by
  show Ideal.ofBits .f32 0x3F000000#32 + Ideal.ofBits .f32 0x3F000000#32
      * Ideal.div (rowSum (F := Ideal) _ (ix2 r (0 : Fin 1))) (norm a (ix2 r (0 : Fin 1)) * norm b (ix2 r (0 : Fin 1))) = _
  rw [rowSum_apply, norm_apply, norm_apply]
  rfl

/-- Entry (r, j) of the mixture of three blocks is entry j of the mixture of their rows r. -/
theorem sim_apply (a b c : FVec Ideal S64x2048 .f32) (r : Fin 64) (j : Fin 2048) :
    sim a b c (ix2 r j) = RowSim.sim (row a r) (row b r) (row c r) j := by
  show a (ix2 r j) + spread (addf (dist a b) (cos a b)) (ix2 r j) * b (ix2 r j)
      + spread (addf (dist a c) (cos a c)) (ix2 r j) * c (ix2 r j) = _
  rw [spread_apply, spread_apply]
  show a (ix2 r j) + (dist a b (ix2 r (0 : Fin 1)) + cos a b (ix2 r (0 : Fin 1))) * b (ix2 r j)
      + (dist a c (ix2 r (0 : Fin 1)) + cos a c (ix2 r (0 : Fin 1))) * c (ix2 r j) = _
  rw [dist_apply, dist_apply, cos_apply, cos_apply]
  rfl

end Cert.KernelIdeal.Sim

end
-- ==== Proof.LibRowBlocks.lean ====
/-
  Blocks of rows with a short middle axis, read at an entry.

  An [a, b, n] array is a stack of a groups of b rows of length n. The steps by which a program takes one row of every
  group out, works on the [a, n] matrix of those rows, and puts the results back are each read here at an entry given
  by its coordinates, for any extents:

    the slice of the middle axis at s       [a, b, n] → [a, 1, n]   entry (r, 0, j) is entry (r, s, j);
    dropping the unit middle axis           [a, 1, n] → [a, n]      entry (r, j) is entry (r, 0, j);
    putting a unit middle axis back         [a, n] → [a, 1, n]      entry (r, 0, j) is entry (r, j), whether the program
                                                                    spells it as a shape cast or as a broadcast;
    a [1, 1, n] block flattened to a vector [1, 1, n] → [n]         entry j is entry (0, 0, j);
    three [a, 1, n] pieces joined on the middle axis → [a, 3, n]    entry (r, s, j) is entry (r, 0, j) of piece s;
    one group of rows copied to every group [1, b, n] → [a, b, n]   entry (r, s, j) is entry (0, s, j);
    a column spread across the columns      [a, 1] → [a, b]         entry (i, j) is entry (i, 0).
-/
import Idealize.ShloMosaic.Lib.ValueIdx
import Idealize.ShloMosaic.Lib.Pipeline.Value

noncomputable section

namespace Idealize.ShloMosaic.RowBlocks

open Idealize.ShloMosaic Idealize.ShloMosaic.ValueIdx

variable {α : Type}

/-- The slice of the middle axis at s: entry (r, 0, j) of the slice is entry (r, s, j) of the array. -/
theorem midSlice_apply {a b n : ℕ} (x : (⟨3, ![a, b, n]⟩ : Shape).Idx → α) (o : ℕ) (s : Fin b) (hs : s.val = o)
    (h : (⟨3, ![a, b, n]⟩ : Shape).Slices ![0, o, 0] ⟨3, ![a, 1, n]⟩) (r : Fin a) (j : Fin n) :
    extractStridedSlice ⟨3, ![a, 1, n]⟩ ![0, o, 0] x h (ix3 r (0 : Fin 1) j) = x (ix3 r s j) := by
  subst hs
  refine extractStridedSlice_apply _ x h (ix3 r (0 : Fin 1) j) (ix3 r s j) fun ax => ?_
  match ax with
  | ⟨0, _⟩ => show r.val = 0 + r.val; omega
  | ⟨1, _⟩ => show s.val = s.val + 0; omega
  | ⟨2, _⟩ => show j.val = 0 + j.val; omega

/-- Dropping the unit middle axis keeps the row-major position: (r, j) reads (r, 0, j). -/
theorem dropMid_apply {a n : ℕ} (y : (⟨3, ![a, 1, n]⟩ : Shape).Idx → α)
    (h : (⟨3, ![a, 1, n]⟩ : Shape).ShapeCasts ⟨2, ![a, n]⟩) (r : Fin a) (j : Fin n) :
    shapeCast ⟨2, ![a, n]⟩ y h (ix2 r j) = y (ix3 r (0 : Fin 1) j) := by
  refine shapeCast_apply y h (ix2 r j) (ix3 r (0 : Fin 1) j) ?_
  rw [Shape.rowMajor_val_three, Shape.rowMajor_val_two]
  show (r.val * 1 + 0) * n + j.val = r.val * n + j.val
  rw [Nat.mul_one, Nat.add_zero]

/-- Putting the unit middle axis back by a shape cast: (r, 0, j) reads (r, j). -/
theorem addMid_apply {a n : ℕ} (y : (⟨2, ![a, n]⟩ : Shape).Idx → α)
    (h : (⟨2, ![a, n]⟩ : Shape).ShapeCasts ⟨3, ![a, 1, n]⟩) (r : Fin a) (j : Fin n) :
    shapeCast ⟨3, ![a, 1, n]⟩ y h (ix3 r (0 : Fin 1) j) = y (ix2 r j) := by
  refine shapeCast_apply y h (ix3 r (0 : Fin 1) j) (ix2 r j) ?_
  rw [Shape.rowMajor_val_three, Shape.rowMajor_val_two]
  show r.val * n + j.val = (r.val * 1 + 0) * n + j.val
  rw [Nat.mul_one, Nat.add_zero]

/-- Putting the unit middle axis back by a broadcast along axes 0 and 2: (r, 0, j) reads (r, j). -/
theorem insertMid_apply {a n : ℕ} (y : (⟨2, ![a, n]⟩ : Shape).Idx → α)
    (h : (⟨2, ![a, n]⟩ : Shape).BroadcastsInDim ⟨3, ![a, 1, n]⟩ ![0, 2]) (r : Fin a) (j : Fin n) :
    broadcastInDim ⟨3, ![a, 1, n]⟩ ![0, 2] h y (ix3 r (0 : Fin 1) j) = y (ix2 r j) := by
  refine broadcastInDim_apply _ h y (ix3 r (0 : Fin 1) j) (ix2 r j) fun x => ?_
  match x with
  | ⟨0, _⟩ =>
    show r.val = if a = 1 then 0 else r.val
    split_ifs with h1
    · have := r.isLt; omega
    · rfl
  | ⟨1, _⟩ =>
    show j.val = if n = 1 then 0 else j.val
    split_ifs with h1
    · have := j.isLt; omega
    · rfl

/-- A [1, 1, n] block flattened to a vector: entry j reads (0, 0, j). -/
theorem flat11_apply {n : ℕ} (y : (⟨3, ![1, 1, n]⟩ : Shape).Idx → α)
    (h : (⟨3, ![1, 1, n]⟩ : Shape).ShapeCasts ⟨1, ![n]⟩) (j : Fin n) :
    shapeCast ⟨1, ![n]⟩ y h (ix1 j) = y (ix3 (0 : Fin 1) (0 : Fin 1) j) := by
  refine shapeCast_apply y h (ix1 j) (ix3 (0 : Fin 1) (0 : Fin 1) j) ?_
  rw [Shape.rowMajor_val_three, Shape.rowMajor_val_one]
  show (0 * 1 + 0) * n + j.val = j.val
  simp

/-- Three [a, 1, n] pieces joined on the middle axis: entry (r, s, j) is entry (r, 0, j) of piece s. -/
theorem stack3_apply {a n : ℕ} (u0 u1 u2 : (⟨3, ![a, 1, n]⟩ : Shape).Idx → α)
    (h : Shape.Concatenates [(⟨3, ![a, 1, n]⟩ : Shape), ⟨3, ![a, 1, n]⟩, ⟨3, ![a, 1, n]⟩] ⟨3, ![a, 3, n]⟩ 1)
    (r : Fin a) (s : Fin 3) (j : Fin n) :
    concatenate ⟨3, ![a, 3, n]⟩ 1 [⟨⟨3, ![a, 1, n]⟩, u0⟩, ⟨⟨3, ![a, 1, n]⟩, u1⟩, ⟨⟨3, ![a, 1, n]⟩, u2⟩] h (ix3 r s j)
      = (![u0, u1, u2] s) (ix3 r (0 : Fin 1) j) := by
  have hi : ∀ b : Fin 3, b.cast (rfl : (3 : ℕ) = 3) ≠ (1 : Fin 3) →
      ((ix3 r (0 : Fin 1) j : (⟨3, ![a, 1, n]⟩ : Shape).Idx) b).val = ((ix3 r s j : (⟨3, ![a, 3, n]⟩ : Shape).Idx) (b.cast rfl)).val := by
    intro b hb
    match b with
    | ⟨0, _⟩ => rfl
    | ⟨1, _⟩ => exact absurd rfl hb
    | ⟨2, _⟩ => rfl
  match s with
  | ⟨0, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 0 (by simp) ⟨3, ![a, 1, n]⟩ u0 rfl rfl 0 rfl
      (ix3 r (0 : Fin 1) j) hi rfl
  | ⟨1, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 1 (by simp) ⟨3, ![a, 1, n]⟩ u1 rfl rfl 1 rfl
      (ix3 r (0 : Fin 1) j) hi rfl
  | ⟨2, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 2 (by simp) ⟨3, ![a, 1, n]⟩ u2 rfl rfl 2 rfl
      (ix3 r (0 : Fin 1) j) hi rfl

/-- One group of b rows copied to every group: entry (r, s, j) reads (0, s, j). -/
theorem spreadGroup_apply {a b n : ℕ} (p : (⟨3, ![1, b, n]⟩ : Shape).Idx → α)
    (h : (⟨3, ![1, b, n]⟩ : Shape).BroadcastsInDim ⟨3, ![a, b, n]⟩ ![0, 1, 2]) (r : Fin a) (s : Fin b) (j : Fin n) :
    broadcastInDim ⟨3, ![a, b, n]⟩ ![0, 1, 2] h p (ix3 r s j) = p (ix3 (0 : Fin 1) s j) := by
  refine broadcastInDim_apply _ h p (ix3 r s j) (ix3 (0 : Fin 1) s j) fun x => ?_
  match x with
  | ⟨0, _⟩ =>
    show 0 = if (1 : ℕ) = 1 then 0 else r.val
    rw [if_pos rfl]
  | ⟨1, _⟩ =>
    show s.val = if b = 1 then 0 else s.val
    split_ifs with h1
    · have := s.isLt; omega
    · rfl
  | ⟨2, _⟩ =>
    show j.val = if n = 1 then 0 else j.val
    split_ifs with h1
    · have := j.isLt; omega
    · rfl

/-- A one-column matrix spread across b columns by a broadcast along both axes: entry (i, j) reads (i, 0). -/
theorem spreadCol_apply {a b : ℕ} (w : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h w (ix2 i j) = w (ix2 i (0 : Fin 1)) := by
  refine broadcastInDim_apply _ h w (ix2 i j) (ix2 i (0 : Fin 1)) fun x => ?_
  match x with
  | ⟨0, _⟩ =>
    show i.val = if a = 1 then 0 else i.val
    split_ifs with h1
    · have := i.isLt; omega
    · rfl
  | ⟨1, _⟩ =>
    show 0 = if (1 : ℕ) = 1 then 0 else j.val
    rw [if_pos rfl]

end Idealize.ShloMosaic.RowBlocks

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.KernelBlock.lean ====
/-
  What one grid point stores, read at an entry.

  At a grid point the body loads a [64, 3, 2048] block x of 64 triples of rows and the [1, 3, 2048] position block p,
  forms the three [64, 2048] blocks of shifted rows f_s = x[:, s, :] + p[0, s, :] (a slice of the middle axis, the unit
  axis dropped; the position row sent down the 64 rows), computes the three similarity mixtures led by f_0, f_1 and f_2,
  gives each its unit middle axis back and joins them on that axis. Entry (r, s, j) of the stored block is therefore
  entry j of step s of the triple of shifted rows of group r.
-/
import proofs.«162248_j58420145160370_2_alg».proof.Proof.Gen.KernelIdeal.Frame
import proofs.«162248_j58420145160370_2_alg».proof.Proof.KernelSim
import proofs.«162248_j58420145160370_2_alg».proof.Proof.LibRowBlocks
import proofs.«162248_j58420145160370_2_alg».proof.Proof.LibVecRows
import Idealize.ShloMosaic.Lib.Pipeline.Value

noncomputable section

namespace Cert.KernelIdeal.Block

open Idealize.ShloMosaic Idealize.ShloMosaic.ValueIdx Cert.KernelIdeal Cert.KernelIdeal.Gen

variable {F : FTy → Type} [FloatOps F]

/-- Three [64, 2048] blocks, each given a unit middle axis, joined on it. -/
def stack (o1 o2 o3 : FVec F S64x2048 .f32) : FVec F S64x3x2048 .f32 :=
  concatenate S64x3x2048 1
    [⟨S64x1x2048, shapeCast S64x1x2048 o1 shapeCasts_S64x2048_S64x1x2048⟩,
     ⟨S64x1x2048, shapeCast S64x1x2048 o2 shapeCasts_S64x2048_S64x1x2048⟩,
     ⟨S64x1x2048, shapeCast S64x1x2048 o3 shapeCasts_S64x2048_S64x1x2048⟩]
    concatenates_S64x1x2048_S64x1x2048_S64x1x2048_S64x3x2048_d1

/-- The body's stored value is the three mixtures of the shifted blocks, joined: the printed operations, regrouped. -/
theorem body_eq (v0 : Vec F S64x3x2048 .f32) (v2 : Vec F S1x3x2048 .f32) :
    k0_pay21 (k0_pay2 v0 v2) (k0_pay3 v0 v2) (k0_pay4 v0 v2)
      (k0_pay8 (k0_pay2 v0 v2) (k0_pay3 v0 v2) (k0_pay4 v0 v2) (k0_pay5 v0 v2) (k0_pay6 v0 v2) (k0_pay7 (F := F)))
      (k0_pay16 (k0_pay2 v0 v2) (k0_pay3 v0 v2) (k0_pay4 v0 v2)
        (k0_pay11 (k0_pay9 (k0_pay2 v0 v2) (k0_pay3 v0 v2)) (k0_pay10 (F := F))) (k0_pay12 (k0_pay3 v0 v2) (k0_pay4 v0 v2))
        (k0_pay13 (k0_pay3 v0 v2)) (k0_pay14 (k0_pay4 v0 v2)) (k0_pay15 (k0_pay2 v0 v2) (k0_pay3 v0 v2)))
      (k0_pay17 (k0_pay2 v0 v2) (k0_pay4 v0 v2)) (k0_pay18 (k0_pay3 v0 v2) (k0_pay4 v0 v2)) (k0_pay19 (k0_pay4 v0 v2))
      (k0_pay20 (F := F))
    = stack (Sim.sim (k0_pay2 v0 v2) (k0_pay3 v0 v2) (k0_pay4 v0 v2))
        (Sim.sim (k0_pay3 v0 v2) (k0_pay2 v0 v2) (k0_pay4 v0 v2))
        (Sim.sim (k0_pay4 v0 v2) (k0_pay2 v0 v2) (k0_pay3 v0 v2)) := rfl

theorem hz : (![0, 0, 0] : Fin 3 → Nat) = fun _ => 0 := funext fun a => by fin_cases a <;> rfl

/-- So is what the body leaves in the output's buffer. -/
theorem out_eq (x0 : Vec F S64x3x2048 .f32) (x1 : Vec F S1x3x2048 .f32) :
    out0_2 x0 x1 = stack (Sim.sim (k0_pay2 x0 x1) (k0_pay3 x0 x1) (k0_pay4 x0 x1))
        (Sim.sim (k0_pay3 x0 x1) (k0_pay2 x0 x1) (k0_pay4 x0 x1))
        (Sim.sim (k0_pay4 x0 x1) (k0_pay2 x0 x1) (k0_pay3 x0 x1)) := by
  unfold out0_2
  rw [View.canon_unit_zero hz]
  simp only [View.ld_unit_zero (S := S64x3x2048) hz, View.ld_unit_zero (S := S1x3x2048) hz]
  exact body_eq x0 x1

/-! ## Read at an entry, on the extended reals -/

theorem stack_apply (o1 o2 o3 : FVec Ideal S64x2048 .f32) (r : Fin 64) (s : Fin 3) (j : Fin 2048) :
    stack o1 o2 o3 (ix3 r s j) = (![o1, o2, o3] s) (ix2 r j) := by
  refine (RowBlocks.stack3_apply _ _ _ concatenates_S64x1x2048_S64x1x2048_S64x1x2048_S64x3x2048_d1 r s j).trans ?_
  match s with
  | ⟨0, _⟩ => exact RowBlocks.addMid_apply o1 shapeCasts_S64x2048_S64x1x2048 r j
  | ⟨1, _⟩ => exact RowBlocks.addMid_apply o2 shapeCasts_S64x2048_S64x1x2048 r j
  | ⟨2, _⟩ => exact RowBlocks.addMid_apply o3 shapeCasts_S64x2048_S64x1x2048 r j

/-- A shifted block at (r, j): row s of group r of the loaded block plus row s of the position block. -/
theorem shifted_apply (v0 : Vec Ideal S64x3x2048 .f32) (v2 : Vec Ideal S1x3x2048 .f32) (o : ℕ) (s : Fin 3) (hs : s.val = o)
    (h0 : S64x3x2048.Slices ![0, o, 0] S64x1x2048) (h1 : S1x3x2048.Slices ![0, o, 0] S1x1x2048) (r : Fin 64) (j : Fin 2048) :
    addf (F := Ideal) (φ := .f32) (shapeCast S64x2048 (extractStridedSlice S64x1x2048 ![0, o, 0] (shapeCast S64x3x2048 v0 shapeCasts_S64x3x2048_S64x3x2048) h0)
          shapeCasts_S64x1x2048_S64x2048)
        (broadcastTo S64x2048 (shapeCast S1x2048 (shapeCast S2048 (extractStridedSlice S1x1x2048 ![0, o, 0] v2 h1)
          shapeCasts_S1x1x2048_S2048) shapeCasts_S2048_S1x2048) broadcasts_S1x2048_S64x2048) (ix2 r j)
      = v0 (ix3 r s j) + v2 (ix3 (0 : Fin 1) s j) := by
  show shapeCast S64x2048 _ _ (ix2 r j) + broadcastTo S64x2048 _ _ (ix2 r j) = _
  rw [RowBlocks.dropMid_apply, RowBlocks.midSlice_apply _ o s hs, shapeCast_self, VecRows.rows_apply,
    RowBlocks.flat11_apply, RowBlocks.midSlice_apply _ o s hs]

/-- The triple of shifted rows of group r. -/
abbrev rows (x0 : Vec Ideal S64x3x2048 .f32) (x1 : Vec Ideal S1x3x2048 .f32) (r : Fin 64) (s : Fin 3) : RowSim.Row 2048 :=
  fun k => x0 (ix3 r s k) + x1 (ix3 (0 : Fin 1) s k)

theorem row0 (x0 : Vec Ideal S64x3x2048 .f32) (x1 : Vec Ideal S1x3x2048 .f32) (r : Fin 64) :
    Sim.row (k0_pay2 x0 x1) r = rows x0 x1 r 0 :=
  funext fun k => shifted_apply x0 x1 0 0 rfl _ _ r k
theorem row1 (x0 : Vec Ideal S64x3x2048 .f32) (x1 : Vec Ideal S1x3x2048 .f32) (r : Fin 64) :
    Sim.row (k0_pay3 x0 x1) r = rows x0 x1 r 1 :=
  funext fun k => shifted_apply x0 x1 1 1 rfl _ _ r k
theorem row2 (x0 : Vec Ideal S64x3x2048 .f32) (x1 : Vec Ideal S1x3x2048 .f32) (r : Fin 64) :
    Sim.row (k0_pay4 x0 x1) r = rows x0 x1 r 2 :=
  funext fun k => shifted_apply x0 x1 2 2 rfl _ _ r k

/-- Entry (r, s, j) of what the body leaves: entry j of step s of the triple of shifted rows of group r. -/
theorem out_apply (x0 : Vec Ideal S64x3x2048 .f32) (x1 : Vec Ideal S1x3x2048 .f32) (r : Fin 64) (s : Fin 3) (j : Fin 2048) :
    out0_2 x0 x1 (ix3 r s j) = RowSim.pick (rows x0 x1 r) s j := by
  rw [out_eq, stack_apply]
  match s with
  | ⟨0, _⟩ =>
    show Sim.sim (F := Ideal) _ _ _ (ix2 r j) = RowSim.sim (rows x0 x1 r 0) (rows x0 x1 r 1) (rows x0 x1 r 2) j
    rw [Sim.sim_apply, row0, row1, row2]
  | ⟨1, _⟩ =>
    show Sim.sim (F := Ideal) _ _ _ (ix2 r j) = RowSim.sim (rows x0 x1 r 1) (rows x0 x1 r 0) (rows x0 x1 r 2) j
    rw [Sim.sim_apply, row0, row1, row2]
  | ⟨2, _⟩ =>
    show Sim.sim (F := Ideal) _ _ _ (ix2 r j) = RowSim.sim (rows x0 x1 r 2) (rows x0 x1 r 0) (rows x0 x1 r 1) j
    rw [Sim.sim_apply, row0, row1, row2]

end Cert.KernelIdeal.Block

end
-- ==== Proof.KernelValue.lean ====
/-
  The kernel's result array, as one function of its arguments.

  @main reshapes the [24576, 2048] argument into 8192 triples of rows, runs the region over them, and reshapes the
  region's [8192, 3, 2048] result back. The region's grid has 128 points; point t reads and writes groups
  64·t … 64·t + 63 (block index t on the first axis, 0 on the others), and reads the whole position array. So what
  point t writes back is block t of ONE whole-array function — the similarity mixtures of RowSim.lean applied to every
  triple —, the 128 blocks tile the array, and after the run the region's result is that function of the reshaped
  argument; @main's result is its reshape.
-/
import proofs.«162248_j58420145160370_2_alg».proof.Proof.Gen.KernelIdeal.Frame
import proofs.«162248_j58420145160370_2_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Idealize.ShloMosaic.ValueIdx Cert.KernelIdeal Cert.KernelIdeal.Gen

variable (m : (ℓ : Loc nD τ sig) → Buf (Elt Ideal) ℓ) (ρ : Dev nD → PrngReg)

/-- The printed index maps, decided over the grid: the row blocks move with the point, the position block stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The array of triples the region reads, and the position array. -/
abbrev X (c : Dev nD) : S8192x3x2048.Idx → EReal := V m c main_v0
abbrev Ppos (c : Dev nD) : S1x3x2048.Idx → EReal := V m c main_arg1

/-- The region's result as one function of what it reads. -/
abbrev G (c : Dev nD) : S8192x3x2048.Idx → EReal := RowSim.out3 (X m c) (Ppos m c)

/-- Entry (r, s, k) of point t's block of triples is entry (64·t + r, s, k) of the array. -/
theorem iblk0_apply (c : Dev nD) (t : Fin cfg0.N) (r : Fin 64) (s : Fin 3) (k : Fin 2048) (q : Fin 8192)
    (hq : q.val = 64 * t.val + r.val) :
    (iblk m c 0 t : Vec Ideal S64x3x2048 .f32) (ix3 r s k) = X m c (ix3 q s k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 64 + 1 * r.val = q.val; rw [e0, hq]; omega
  | ⟨1, _⟩ => show win0_0.index t (1 : Fin 3) * 3 + 1 * s.val = s.val; rw [e1]; omega
  | ⟨2, _⟩ => show win0_0.index t (2 : Fin 3) * 2048 + 1 * k.val = k.val; rw [e2]; omega

/-- The position block at every point is the position array. -/
theorem iblk1_apply (c : Dev nD) (t : Fin cfg0.N) (s : Fin 3) (k : Fin 2048) :
    (iblk m c 1 t : Vec Ideal S1x3x2048 .f32) (ix3 (0 : Fin 1) s k) = Ppos m c (ix3 (0 : Fin 1) s k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = 0; rw [e0]
  | ⟨1, _⟩ => show win0_1.index t (1 : Fin 3) * 3 + 1 * s.val = s.val; rw [e1]; omega
  | ⟨2, _⟩ => show win0_1.index t (2 : Fin 3) * 2048 + 1 * k.val = k.val; rw [e2]; omega

/-- WHAT POINT t WRITES BACK is block t of the whole-array function. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  obtain ⟨-, -, -, -, -, -, e0, e1, e2⟩ := idx_facts t
  funext y
  obtain ⟨r, s, j, rfl⟩ : ∃ (r : Fin 64) (s : Fin 3) (j : Fin 2048), y = ix3 r s j := ⟨y 0, y 1, y 2, eq_ix3 y⟩
  have ht : t.val < 128 := by have h := t.isLt; have hN : cfg0.N = 128 := N_0; omega
  have hq : 64 * t.val + r.val < 8192 := by have := r.isLt; omega
  rw [View.read_apply]
  have hemb : ((cfg0.win 2).blk t).view.emb (ix3 r s j) = (ix3 (⟨64 * t.val + r.val, hq⟩ : Fin 8192) s j : S8192x3x2048.Idx) := by
    funext a
    apply Fin.ext
    match a with
    | ⟨0, _⟩ => show win0_2.index t (0 : Fin 3) * 64 + 1 * r.val = 64 * t.val + r.val; rw [e0]; omega
    | ⟨1, _⟩ => show win0_2.index t (1 : Fin 3) * 3 + 1 * s.val = s.val; rw [e1]; omega
    | ⟨2, _⟩ => show win0_2.index t (2 : Fin 3) * 2048 + 1 * j.val = j.val; rw [e2]; omega
  rw [hemb]
  show out0_2 (iblk m c 0 t) (iblk m c 1 t) (ix3 r s j) = RowSim.pick (RowSim.rowOf (X m c) (Ppos m c) ⟨64 * t.val + r.val, hq⟩) s j
  rw [Block.out_apply]
  refine congrArg (fun f => RowSim.pick f s j) (funext fun s' => funext fun k => ?_)
  have h0 := iblk0_apply m c t r s' k ⟨64 * t.val + r.val, hq⟩ rfl
  have h1 := iblk1_apply m c t s' k
  dsimp only [Block.rows, RowSim.rowOf]
  rw [h0, h1]

/-- An index of the array is in point t's block iff each coordinate is in the block's range on its axis. -/
theorem mem_blk (t : Fin cfg0.N) (i : S8192x3x2048.Idx) :
    i ∈ ((cfg0.win 2).blk t).view.set ↔ ∀ a : Fin 3, win0_2.index t a * S64x3x2048.size a ≤ (i a).val ∧ (i a).val < win0_2.index t a * S64x3x2048.size a + S64x3x2048.size a := by
  show i ∈ ((View.whole main_v1).slice (win0_2.rect t)).set ↔ _
  rw [View.set_slice_whole, Rect.mem_set_unit]
  exact Iff.rfl

/-- The 128 blocks tile the array: group q is in the block of point q / 64. -/
theorem cover (i : S8192x3x2048.Idx) : ∃ t : Fin cfg0.N, (cfg0.win 2).flush t = true ∧ i ∈ ((cfg0.win 2).blk t).view.set := by
  have hi0 : (i 0).val < 8192 := (i 0).isLt
  have hi1 : (i 1).val < 3 := (i 1).isLt
  have hi2 : (i 2).val < 2048 := (i 2).isLt
  have hN : cfg0.N = 128 := N_0
  let t : Fin cfg0.N := ⟨(i 0).val / 64, by rw [hN]; omega⟩
  obtain ⟨-, -, -, -, -, -, e0, e1, e2⟩ := idx_facts t
  have e0' : win0_2.index t (0 : Fin 3) = (i 0).val / 64 := e0
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; rw [e0']; omega
  | ⟨1, _⟩ => show win0_2.index t (1 : Fin 3) * 3 ≤ (i 1).val ∧ (i 1).val < win0_2.index t (1 : Fin 3) * 3 + 3; rw [e1]; omega
  | ⟨2, _⟩ => show win0_2.index t (2 : Fin 3) * 2048 ≤ (i 2).val ∧ (i 2).val < win0_2.index t (2 : Fin 3) * 2048 + 2048; rw [e2]; omega

/-- THE REGION'S RESULT after the run is the whole-array function of what the region reads. -/
theorem final (c : Dev nD) : (dats m 0 c).arrAt 2 cfg0.N = G m c :=
  (dats m 0 c).arrAt_eq_of_cover 2 (G m c) (fun t _ => flushed_eq m c t) (cover)

/-- What the region reads: the reshaped first argument (the one host line before the region) and the position argument. -/
theorem X_eq (c : Dev nD) :
    X m c = shapeCast S8192x3x2048 (m ((c : Thread nD τ).loc main_arg0) : S24576x2048.Idx → EReal) shapeCasts_S24576x2048_S8192x3x2048 := by
  show StableHlo.after hostOps0 (fun b => m (c, b)) (Proc.devRef .tc main_v0) = _
  after_results
  rfl

theorem P_eq (c : Dev nD) : Ppos m c = m ((c : Thread nD τ).loc main_arg1) := V_main_arg1 m c

/-- @main's result as one function of the arguments. -/
abbrev result (a0 : S24576x2048.Idx → EReal) (a1 : S1x3x2048.Idx → EReal) : S24576x2048.Idx → EReal :=
  shapeCast S24576x2048 (RowSim.out3 (shapeCast S8192x3x2048 a0 shapeCasts_S24576x2048_S8192x3x2048) a1) shapeCasts_S8192x3x2048_S24576x2048

/-- The host line after the region reshapes the region's result. -/
theorem tail_eq (c : Dev nD) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  after_results
  show shapeCast S24576x2048 (Pipeline.withArrays spec0 c (V0 m c) (fun w => (dats m 0 c).arrAt w cfg0.N) (Proc.devRef .tc main_v1)) _ = _
  rw [(Pipeline.withArrays_arr spec0 launch0.win.arr_inj c _ _ 2).trans (final m c)]
  show shapeCast S24576x2048 (RowSim.out3 (X m c) (Ppos m c)) _ = _
  rw [X_eq, P_eq]

/-- The run, read: the result array at the function of the arguments, the arguments unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Whole

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.HostSim.lean ====
/-
  One similarity mixture in the reference program, as arrays, and read at an entry.

  The reference works on [8192, 2048] arrays of rows. A sum over a row is the host's reduction from a zero initial
  value, then kept as an [8192, 1] column by a broadcast that adds the unit axis; constants are rank-zero arrays spread
  over a shape; a column is spread back across the 2048 entries of its row before it multiplies an array. Read on the
  extended reals at row r, each column entry is the row-level quantity of RowSim.lean for rows r of the arrays (the
  zero initial value is the sum's neutral element), and the mixture's entry (r, j) is entry j of the mixture of those rows.
-/
import proofs.«162248_j58420145160370_2_alg».proof.ReferenceIdeal
import proofs.«162248_j58420145160370_2_alg».proof.Proof.RowSim
import proofs.«162248_j58420145160370_2_alg».proof.Proof.LibKeepdims
import proofs.«162248_j58420145160370_2_alg».proof.Proof.LibRowBlocks
import Idealize.ShloMosaic.Lib.ValueIdx
import Idealize.ShloMosaic.PureOps.Ideal.Laws

noncomputable section

open scoped BigOperators

namespace Cert.ReferenceIdeal.Sim

open Idealize.ShloMosaic Idealize.ShloMosaic.ValueIdx Cert.ReferenceIdeal Cert.ReferenceIdeal.Facts₀

variable {F : FTy → Type} [FloatOps F] [Cert.ReferenceIdeal.Facts]

/-- The sum of every row, kept as a column. -/
def rowSum (x : FVec F S8192x2048 .f32) : FVec F S8192x1 .f32 :=
  broadcastInDim S8192x1 ![0] bcast_S8192_S8192x1_0
    (Host.reduceAdd x (constant S_ .f32 0x00000000#32) reducesTo_S8192x2048_S8192_d1 h_S_)

/-- A column spread across the entries of its row. -/
def spread (w : FVec F S8192x1 .f32) : FVec F S8192x2048 .f32 :=
  broadcastInDim S8192x2048 ![0, 1] bcast_S8192x1_S8192x2048_0_1 w

/-- A constant as a column. -/
def splat1 (w : BitVec 32) : FVec F S8192x1 .f32 := broadcastInDim S8192x1 ![] bcast_S_S8192x1 (constant S_ .f32 w)

/-- A constant as an array of rows. -/
def splat2 (w : BitVec 32) : FVec F S8192x2048 .f32 := broadcastInDim S8192x2048 ![] bcast_S_S8192x2048 (constant S_ .f32 w)

/-- The distance weight, row by row. -/
def dist (a b : FVec F S8192x2048 .f32) : FVec F S8192x1 .f32 :=
  Host.divf (splat1 0x3F800000#32)
    (addf (splat1 0x3F800000#32)
      (Host.sqrt (rowSum (mulf (addf (subf a b) (splat2 0x358637BD#32)) (addf (subf a b) (splat2 0x358637BD#32))))))

/-- The clamped norm, row by row. -/
def norm (a : FVec F S8192x2048 .f32) : FVec F S8192x1 .f32 :=
  maximumf (Host.sqrt (rowSum (mulf a a))) (splat1 0x322BCC77#32)

/-- The cosine weight, row by row. -/
def cos (a b : FVec F S8192x2048 .f32) : FVec F S8192x1 .f32 :=
  addf (splat1 0x3F000000#32) (mulf (splat1 0x3F000000#32) (Host.divf (rowSum (mulf a b)) (mulf (norm a) (norm b))))

/-- The mixture of three arrays of rows. -/
def sim (a b c : FVec F S8192x2048 .f32) : FVec F S8192x2048 .f32 :=
  addf (addf a (mulf (spread (addf (dist a b) (cos a b))) b)) (mulf (spread (addf (dist a c) (cos a c))) c)

/-! ## Read at an entry, on the extended reals -/

/-- Row r of an array of rows. -/
abbrev row (a : FVec Ideal S8192x2048 .f32) (r : Fin 8192) : RowSim.Row 2048 := fun k => a (ix2 r k)

theorem rowSum_apply (x : FVec Ideal S8192x2048 .f32) (r : Fin 8192) :
    rowSum x (ix2 r (0 : Fin 1)) = ∑ k : Fin 2048, x (ix2 r k) := by
  have hR : S8192x2048.Reduces [1] S8192 := by decide
  refine (Keepdims.column_apply bcast_S8192_S8192x1_0 _ r).trans ?_
  show Ideal.hostReduceAdd reducesTo_S8192x2048_S8192_d1 x (Ideal.ofBits .f32 0x00000000#32) (ix1 r) = _
  rw [Ideal.hostReduceAdd_single reducesTo_S8192x2048_S8192_d1 hR x _ (ix1 r), Ideal.ofBits_zero_f32, zero_add]
  refine Finset.sum_congr rfl fun k _ => congrArg x (funext fun c => Fin.ext ?_)
  match c with
  | ⟨0, _⟩ => rfl
  | ⟨1, _⟩ => rfl

theorem spread_apply (w : FVec Ideal S8192x1 .f32) (r : Fin 8192) (j : Fin 2048) :
    spread w (ix2 r j) = w (ix2 r (0 : Fin 1)) :=
  RowBlocks.spreadCol_apply w bcast_S8192x1_S8192x2048_0_1 r j

theorem dist_apply (a b : FVec Ideal S8192x2048 .f32) (r : Fin 8192) :
    dist a b (ix2 r (0 : Fin 1)) = RowSim.distW (row a r) (row b r) := by
  show Ideal.div (Ideal.ofBits .f32 0x3F800000#32) (Ideal.ofBits .f32 0x3F800000#32 + Ideal.sqrt (rowSum (F := Ideal) _ (ix2 r (0 : Fin 1)))) = _
  rw [rowSum_apply]
  rfl

theorem norm_apply (a : FVec Ideal S8192x2048 .f32) (r : Fin 8192) :
    norm a (ix2 r (0 : Fin 1)) = RowSim.norm (row a r) := by
  show max (Ideal.sqrt (rowSum (F := Ideal) _ (ix2 r (0 : Fin 1)))) (Ideal.ofBits .f32 0x322BCC77#32) = _
  rw [rowSum_apply]
  rfl

theorem cos_apply (a b : FVec Ideal S8192x2048 .f32) (r : Fin 8192) :
    cos a b (ix2 r (0 : Fin 1)) = RowSim.cosW (row a r) (row b r) := by
  show Ideal.ofBits .f32 0x3F000000#32 + Ideal.ofBits .f32 0x3F000000#32
      * Ideal.div (rowSum (F := Ideal) _ (ix2 r (0 : Fin 1))) (norm a (ix2 r (0 : Fin 1)) * norm b (ix2 r (0 : Fin 1))) = _
  rw [rowSum_apply, norm_apply, norm_apply]
  rfl

/-- Entry (r, j) of the mixture of three arrays is entry j of the mixture of their rows r. -/
theorem sim_apply (a b c : FVec Ideal S8192x2048 .f32) (r : Fin 8192) (j : Fin 2048) :
    sim a b c (ix2 r j) = RowSim.sim (row a r) (row b r) (row c r) j := by
  show a (ix2 r j) + spread (addf (dist a b) (cos a b)) (ix2 r j) * b (ix2 r j)
      + spread (addf (dist a c) (cos a c)) (ix2 r j) * c (ix2 r j) = _
  rw [spread_apply, spread_apply]
  show a (ix2 r j) + (dist a b (ix2 r (0 : Fin 1)) + cos a b (ix2 r (0 : Fin 1))) * b (ix2 r j)
      + (dist a c (ix2 r (0 : Fin 1)) + cos a c (ix2 r (0 : Fin 1))) * c (ix2 r j) = _
  rw [dist_apply, dist_apply, cos_apply, cos_apply]
  rfl

end Cert.ReferenceIdeal.Sim

end
-- ==== Proof.RefValue.lean ====
/-
  The reference's result array, as one function of its arguments.

  The reference reshapes the [24576, 2048] argument into 8192 triples of rows, adds the position array to every triple,
  takes the three [8192, 2048] arrays of first, second and third rows (a slice of the middle axis, the unit axis
  dropped), computes the three similarity mixtures led by each, gives each its unit middle axis back, joins them on
  that axis and reshapes. Its generated run states the result as one composed term; here that term is regrouped as the
  three mixtures and read at an entry: entry (r, s, j) before the last reshape is entry j of step s of the triple of
  shifted rows of group r — the whole-array function of RowSim.lean.
-/
import proofs.«162248_j58420145160370_2_alg».proof.Proof.Gen.ReferenceIdeal.Run
import proofs.«162248_j58420145160370_2_alg».proof.Proof.HostSim
import proofs.«162248_j58420145160370_2_alg».proof.Proof.LibRowBlocks

set_option maxRecDepth 16384

noncomputable section

open Idealize.ShloMosaic Idealize.ShloMosaic.TcCoe Idealize.SL.Sem

namespace Cert.ReferenceIdeal.RefValue

open Idealize.ShloMosaic.ValueIdx Cert.ReferenceIdeal Cert.ReferenceIdeal.Gen Cert.ReferenceIdeal.Value

variable {F : FTy → Type} [FloatOps F]

/-- An array of rows given a unit middle axis. -/
def mid (y : FVec F S8192x2048 .f32) : FVec F S8192x1x2048 .f32 :=
  broadcastInDim S8192x1x2048 ![0, 2] bcast_S8192x2048_S8192x1x2048_0_2 y

/-- The run's composed term is the three mixtures of the arrays of shifted rows, joined: the printed operations, regrouped. -/
theorem res_eq (V0 : Valuation τ sig (Elt F)) :
    res_main_v210 V0 = concatenate S8192x3x2048 1
      [⟨S8192x1x2048, mid (Sim.sim (res_main_v4 V0) (res_main_v6 V0) (res_main_v8 V0))⟩,
       ⟨S8192x1x2048, mid (Sim.sim (res_main_v6 V0) (res_main_v4 V0) (res_main_v8 V0))⟩,
       ⟨S8192x1x2048, mid (Sim.sim (res_main_v8 V0) (res_main_v4 V0) (res_main_v6 V0))⟩]
      concatenates_S8192x1x2048_S8192x1x2048_S8192x1x2048_S8192x3x2048_d1 := rfl

/-! ## Read at an entry, on the extended reals -/

section Entry

variable (V0 : Valuation τ sig (Elt Ideal))

/-- The reshaped first argument and the position argument. -/
abbrev X : S8192x3x2048.Idx → EReal :=
  shapeCast S8192x3x2048 (V0 (Proc.devRef .tc main_arg0) : S24576x2048.Idx → EReal) shapeCasts_S24576x2048_S8192x3x2048
abbrev Ppos : S1x3x2048.Idx → EReal := V0 (Proc.devRef .tc main_arg1)

/-- A shifted array at (r, k): row s of group r of the reshaped argument plus row s of the position array. -/
theorem shifted_apply (o : ℕ) (s : Fin 3) (hs : s.val = o) (h0 : S8192x3x2048.Slices ![0, o, 0] S8192x1x2048) (r : Fin 8192) (k : Fin 2048) :
    shapeCast S8192x2048 (extractStridedSlice S8192x1x2048 ![0, o, 0] (res_main_v2 V0) h0) shapeCasts_S8192x1x2048_S8192x2048 (ix2 r k)
      = X V0 (ix3 r s k) + Ppos V0 (ix3 (0 : Fin 1) s k) := by
  rw [RowBlocks.dropMid_apply, RowBlocks.midSlice_apply _ o s hs]
  show X V0 (ix3 r s k) + broadcastInDim S8192x3x2048 ![0, 1, 2] bcast_S1x3x2048_S8192x3x2048_0_1_2 (Ppos V0) (ix3 r s k) = _
  rw [RowBlocks.spreadGroup_apply]

theorem row0 (r : Fin 8192) : Sim.row (res_main_v4 V0) r = RowSim.rowOf (X V0) (Ppos V0) r 0 :=
  funext fun k => shifted_apply V0 0 0 rfl _ r k
theorem row1 (r : Fin 8192) : Sim.row (res_main_v6 V0) r = RowSim.rowOf (X V0) (Ppos V0) r 1 :=
  funext fun k => shifted_apply V0 1 1 rfl _ r k
theorem row2 (r : Fin 8192) : Sim.row (res_main_v8 V0) r = RowSim.rowOf (X V0) (Ppos V0) r 2 :=
  funext fun k => shifted_apply V0 2 2 rfl _ r k

/-- Entry (r, s, j) of the joined array: entry j of step s of the triple of shifted rows of group r. -/
theorem res_apply (r : Fin 8192) (s : Fin 3) (j : Fin 2048) :
    res_main_v210 V0 (ix3 r s j) = RowSim.pick (RowSim.rowOf (X V0) (Ppos V0) r) s j := by
  rw [res_eq]
  refine (RowBlocks.stack3_apply _ _ _ concatenates_S8192x1x2048_S8192x1x2048_S8192x1x2048_S8192x3x2048_d1 r s j).trans ?_
  match s with
  | ⟨0, _⟩ =>
    show broadcastInDim S8192x1x2048 ![0, 2] bcast_S8192x2048_S8192x1x2048_0_2
        (Sim.sim (F := Ideal) (res_main_v4 V0) (res_main_v6 V0) (res_main_v8 V0)) (ix3 r (0 : Fin 1) j)
      = RowSim.sim (RowSim.rowOf (X V0) (Ppos V0) r 0) (RowSim.rowOf (X V0) (Ppos V0) r 1) (RowSim.rowOf (X V0) (Ppos V0) r 2) j
    rw [RowBlocks.insertMid_apply, Sim.sim_apply, row0, row1, row2]
  | ⟨1, _⟩ =>
    show broadcastInDim S8192x1x2048 ![0, 2] bcast_S8192x2048_S8192x1x2048_0_2
        (Sim.sim (F := Ideal) (res_main_v6 V0) (res_main_v4 V0) (res_main_v8 V0)) (ix3 r (0 : Fin 1) j)
      = RowSim.sim (RowSim.rowOf (X V0) (Ppos V0) r 1) (RowSim.rowOf (X V0) (Ppos V0) r 0) (RowSim.rowOf (X V0) (Ppos V0) r 2) j
    rw [RowBlocks.insertMid_apply, Sim.sim_apply, row0, row1, row2]
  | ⟨2, _⟩ =>
    show broadcastInDim S8192x1x2048 ![0, 2] bcast_S8192x2048_S8192x1x2048_0_2
        (Sim.sim (F := Ideal) (res_main_v8 V0) (res_main_v4 V0) (res_main_v6 V0)) (ix3 r (0 : Fin 1) j)
      = RowSim.sim (RowSim.rowOf (X V0) (Ppos V0) r 2) (RowSim.rowOf (X V0) (Ppos V0) r 0) (RowSim.rowOf (X V0) (Ppos V0) r 1) j
    rw [RowBlocks.insertMid_apply, Sim.sim_apply, row0, row1, row2]

/-- The joined array is the whole-array function of the reshaped argument and the position array. -/
theorem res_out3 : res_main_v210 V0 = RowSim.out3 (X V0) (Ppos V0) := by
  funext i
  obtain ⟨r, s, j, rfl⟩ : ∃ (r : Fin 8192) (s : Fin 3) (j : Fin 2048), i = ix3 r s j := ⟨i 0, i 1, i 2, eq_ix3 i⟩
  rw [res_apply, RowSim.out3_apply]

end Entry

end Cert.ReferenceIdeal.RefValue

end
-- ==== Proof.lean ====
/-
  The claim: a "correlation" layer computed by a tiled kernel equals its array-level reference, on the extended reals.

  The input is 8192 triples of rows of length 2048 (stored as a [24576, 2048] array) and a [1, 3, 2048] position
  array. Every row is first shifted by the position row of its step. For a triple (f_0, f_1, f_2) of shifted rows the
  layer returns three rows: the similarity mixture led by f_0 with (f_1, f_2), the one led by f_1 with (f_0, f_2) and
  the one led by f_2 with (f_0, f_1), where the mixture of (a, b, c) is

      a + (w(a, b) + u(a, b)) · b + (w(a, c) + u(a, c)) · c,
      w(a, b) = 1 / (1 + ‖a − b + ε‖),   u(a, b) = 1/2 + 1/2 · ⟨a, b⟩ / (max(‖a‖, δ) · max(‖b‖, δ)).

  The kernel handles 64 triples per grid point (128 points), the reference all 8192 at once; both spell the mixture
  with the same operations in the same order and carry the same four constants, so the two results are ONE function
  of the arguments: entry (r, s, j) is entry j of step s of the triple of shifted rows of group r (RowSim.lean). What
  has to be joined is only how each side lays the rows out: the kernel's lane sums kept as columns against the host's
  reductions from a zero initial value (zero is the sum's neutral element); slices, unit axes added and dropped, and
  broadcasts, each read at an entry; and the 128 blocks that tile the array. No law of the extended reals that needs
  finite values is used, so the precondition is never opened.

  The three frames are the generated ones (the reference's is its generated run with the result dropped); the
  idealization rewrote nothing, so its statement is trivial.
-/
import proofs.«162248_j58420145160370_2_alg».proof.Defs
import proofs.«162248_j58420145160370_2_alg».proof.Proof.Gen.Kernel
import proofs.«162248_j58420145160370_2_alg».proof.Proof.Gen.Kernel.Skeleton
import proofs.«162248_j58420145160370_2_alg».proof.Proof.Gen.Kernel.Launch
import proofs.«162248_j58420145160370_2_alg».proof.Proof.Gen.Kernel.Points
import proofs.«162248_j58420145160370_2_alg».proof.Proof.Gen.Kernel.Frame
import proofs.«162248_j58420145160370_2_alg».proof.Proof.Gen.KernelIdeal
import proofs.«162248_j58420145160370_2_alg».proof.Proof.Gen.KernelIdeal.Skeleton
import proofs.«162248_j58420145160370_2_alg».proof.Proof.Gen.KernelIdeal.Launch
import proofs.«162248_j58420145160370_2_alg».proof.Proof.Gen.KernelIdeal.Points
import proofs.«162248_j58420145160370_2_alg».proof.Proof.Gen.KernelIdeal.Frame
import proofs.«162248_j58420145160370_2_alg».proof.Proof.Gen.ReferenceIdeal
import proofs.«162248_j58420145160370_2_alg».proof.Proof.Gen.ReferenceIdeal.Run
import proofs.«162248_j58420145160370_2_alg».proof.Proof.Gen.Pre_finite_inputs
import proofs.«162248_j58420145160370_2_alg».proof.Proof.KernelValue
import proofs.«162248_j58420145160370_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- Both programs end with their result array at the reshape of the whole-array similarity function of the reshaped
    first argument and the position argument: the kernel by its 128 blocks, the reference by its composed term. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_out3]
  show shapeCast _ (Cert.RowSim.out3
      (shapeCast _ (m' ((c.tc : Thread Cert.ReferenceIdeal.nD Cert.ReferenceIdeal.τ).loc Cert.ReferenceIdeal.main_arg0)) _)
      (m' ((c.tc : Thread Cert.ReferenceIdeal.nD Cert.ReferenceIdeal.τ).loc Cert.ReferenceIdeal.main_arg1))) _ = _
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
